-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S4096 : Shape := ⟨1, ![4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S256x512 .f32) (main_arg7 : FVec F S256 .f32) (main_arg8 : FVec F S512x256 .f32) (main_arg9 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg6
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg9 main_v33

def fn {F : FTy → Type} [FloatOps F] (main_arg0 : FVec F S8192x512 .f32) (main_arg1 : FVec F S8192x8192 .f32) (main_arg2 : IVec S4096 32) (main_arg3 : IVec S4096 32) (main_arg4 : FVec F S256x512 .f32) (main_arg5 : FVec F S256 .f32) (main_arg6 : FVec F S256x512 .f32) (main_arg7 : FVec F S256 .f32) (main_arg8 : FVec F S512x256 .f32) (main_arg9 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S8192x512 : Shape := ⟨2, ![8192, 512]⟩
abbrev S8192x8192 : Shape := ⟨2, ![8192, 8192]⟩
abbrev S4096 : Shape := ⟨1, ![4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1x256 : Shape := ⟨2, ![1, 256]⟩
abbrev S1x512 : Shape := ⟨2, ![1, 512]⟩
abbrev S8192x1 : Shape := ⟨2, ![8192, 1]⟩
abbrev S2048x512 : Shape := ⟨2, ![2048, 512]⟩
abbrev S2048x1 : Shape := ⟨2, ![2048, 1]⟩
abbrev S2048x256 : Shape := ⟨2, ![2048, 256]⟩
abbrev S2048 : Shape := ⟨1, ![2048]⟩
abbrev S8192 : Shape := ⟨1, ![8192]⟩
abbrev S_ : Shape := ⟨0, ![]⟩
abbrev S4096x1 : Shape := ⟨2, ![4096, 1]⟩

abbrev nBuf : Space → Nat
  | .hbm => 40
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S4096, .i32⟩
  | .hbm, ⟨3, _⟩ => ⟨S4096, .i32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S512x256, .f32⟩
  | .hbm, ⟨11, _⟩ => ⟨S512x256, .bf16⟩
  | .hbm, ⟨12, _⟩ => ⟨S256x512, .f32⟩
  | .hbm, ⟨13, _⟩ => ⟨S256x512, .bf16⟩
  | .hbm, ⟨14, _⟩ => ⟨S1x256, .f32⟩
  | .hbm, ⟨15, _⟩ => ⟨S1x512, .f32⟩
  | .hbm, ⟨16, _⟩ => ⟨S8192x1, .f32⟩
  | .hbm, ⟨17, _⟩ => ⟨S8192, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S1x256, .f32⟩
  | .local _ .vmem, ⟨4, _⟩ => ⟨S256x512, .bf16⟩
  | .local _ .vmem, ⟨5, _⟩ => ⟨S1x512, .f32⟩
  | .local _ .vmem, ⟨6, _⟩ => ⟨S2048x1, .f32⟩
  | .local _ .vmem, ⟨7, _⟩ => ⟨S2048x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x512_S512x256_1_0 : S256x512.Transposes [1, 0] S512x256
  bitsLt_bf16_f32 : FTy.bits .bf16 < FTy.bits .f32
  transposes_S512x256_S256x512_1_0 : S512x256.Transposes [1, 0] S256x512
  shapeCasts_S256_S1x256 : S256.ShapeCasts S1x256
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  bcast_S_S4096 : S_.BroadcastsInDim S4096 (![] : Fin 0 → Fin S4096.rank)
  bcast_S4096_S4096x1_0 : S4096.BroadcastsInDim S4096x1 (![0] : Fin 1 → Fin S4096x1.rank)
  reducesTo_S4096_S_d0 : S4096.ReducesTo [0] S_
  h_S_ : 0 < S_.numel
  dot_S2048x512_S512x256_S2048x256_1_0_0_1_n_n_wf : DotDims.WF S2048x512 S512x256 S2048x256 [1] [0] [0] [1] [] []
  dot_S2048x256_S256x512_S2048x512_1_0_0_1_n_n_wf : DotDims.WF S2048x256 S256x512 S2048x512 [1] [0] [0] [1] [] []
  gather_S8192_S4096x1_S4096_n_0_n_n_0_1_1_wf : GatherDims.WF S8192 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S4096 : Shape := ⟨1, ![4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S8192x256 : Shape := ⟨2, ![8192, 256]⟩
abbrev S1x256 : Shape := ⟨2, ![1, 256]⟩
abbrev S_ : Shape := ⟨0, ![]⟩
abbrev S1x512 : Shape := ⟨2, ![1, 512]⟩
abbrev S4096x1 : Shape := ⟨2, ![4096, 1]⟩
abbrev S4096x512 : Shape := ⟨2, ![4096, 512]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S4096, .i32⟩
  | .hbm, ⟨3, _⟩ => ⟨S4096, .i32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S512x256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S512x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S256x512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096x512, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4096x512, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096, .f32⟩
  | .hbm, ⟨80, _⟩ => ⟨S4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x512_S4096_d1 : S4096x512.ReducesTo [1] S4096
  h_S_ : 0 < S_.numel
  reducesTo_S4096_S_d0 : S4096.ReducesTo [0] S_
  dot_S8192x512_S512x256_S8192x256_1_0_0_1_n_n_wf : DotDims.WF S8192x512 S512x256 S8192x256 [1] [0] [0] [1] [] []
  dot_S8192x256_S256x512_S8192x512_1_0_0_1_n_n_wf : DotDims.WF S8192x256 S256x512 S8192x512 [1] [0] [0] [1] [] []
  gather_S8192x512_S4096x1_S4096x512_1_0_n_n_0_1_1512_wf : GatherDims.WF S8192x512 S4096x1 S4096x512 [1] [0] [] [0] [] 1 ![1, 512]

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf

class Facts : Prop extends Facts₀ where

variable [Facts]
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«129387_j386547056923_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«129387_j386547056923_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibRowGather.lean ====
/-
  Picking rows by an array of integers.

  What `x[idx]` lowers to when `idx` is a vector of R integers presented as an [R, 1] array of start indices: a
  gather that collapses the operand's first axis, takes slices of one row, and reads the one component of each start
  index along the second axis of the start indices. Two operand ranks occur: a vector of N numbers (the result is a
  vector of R numbers) and an N-by-C matrix (the result is the R-by-C matrix of the picked rows). In both, result
  row p reads operand row `clampRow N (idx[p, 0])`: the start index read as a signed integer and clamped into
  [0, N - 1], so a negative index reads row 0 and an index past the end reads the last row. Consequently a quantity
  computed row by row from a matrix, then picked, is the same quantity computed from the picked rows.
-/
import Idealize.ShloMosaic.PureOps.ShapeOps
import Idealize.ShloMosaic.PureOps.Dims
import Idealize.ShloMosaic.Lib.ValueIdx

noncomputable section

namespace Cert.Lib.RowGather

open Idealize.ShloMosaic Idealize.ShloMosaic.ValueIdx

/-- The operand row a start index word selects among N rows: the word read signed, clamped into [0, N - 1]. -/
def clampRow (N : Nat) (hN : 0 < N) {w : Nat} (v : BitVec w) : Fin N := ⟨min v.toInt.toNat (N - 1), by omega⟩

/-- The dimension numbers of picking entries of a vector of N numbers by an [R, 1] array of start indices. -/
abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of picking rows of an N-by-C matrix by an [R, 1] array of start indices. -/
abbrev pickRowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry p of the picked vector is the operand's entry at the clamped p-th start index. -/
theorem pick_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (pickDims N R wf) x idx (ix1 p)
      = x (ix1 (clampRow N hN (idx (ix2 (n0 := R) (n1 := 1) p ⟨0, Nat.one_pos⟩)))) := by
  unfold Host.gather
  congr 1
  funext a
  obtain rfl : a = 0 := Subsingleton.elim _ _
  refine Fin.ext ?_
  show (pickDims N R wf).start (ix1 p) idx 0 + (pickDims N R wf).batchCoord (ix1 p) 0 + (pickDims N R wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 p) ⟨List.idxOf (0 : Fin 1) (pickDims N R wf).startIndexMap,
      List.idxOf_lt_length_iff.2 (List.mem_singleton.mpr rfl)⟩ = ix2 (n0 := R) (n1 := 1) p ⟨0, Nat.one_pos⟩ := by
    funext b; refine Fin.ext ?_
    match b with
    | ⟨0, _⟩ => rfl
    | ⟨1, _⟩ => rfl
  rw [hsi]
  rfl

/-- Entry (p, q) of the picked rows is the operand's entry in column q of the row at the clamped p-th start index. -/
theorem pickRows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (pickRowsDims N C R wf) x idx (ix2 p q)
      = x (ix2 (clampRow N hN (idx (ix2 (n0 := R) (n1 := 1) p ⟨0, Nat.one_pos⟩))) q) := by
  have key0 : (pickRowsDims N C R wf).start (ix2 p q) idx (0 : Fin 2) + (pickRowsDims N C R wf).batchCoord (ix2 p q) (0 : Fin 2)
      + (pickRowsDims N C R wf).offCoord (ix2 p q) (0 : Fin 2)
      = (clampRow N hN (idx (ix2 (n0 := R) (n1 := 1) p ⟨0, Nat.one_pos⟩))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRowsDims N C R wf).startIndexMap from List.mem_singleton.mpr rfl)]
    have hsi : (pickRowsDims N C R wf).siIdx (ix2 p q) ⟨List.idxOf (0 : Fin 2) (pickRowsDims N C R wf).startIndexMap,
        List.idxOf_lt_length_iff.2 (List.mem_singleton.mpr rfl)⟩ = ix2 (n0 := R) (n1 := 1) p ⟨0, Nat.one_pos⟩ := by
      funext b; refine Fin.ext ?_
      match b with
      | ⟨0, _⟩ => rfl
      | ⟨1, _⟩ => rfl
    rw [hsi]
    rfl
  have h1m : ¬ (1 : Fin 2) ∈ (pickRowsDims N C R wf).startIndexMap := by
    show ¬ (1 : Fin 2) ∈ ([0] : List (Fin 2)); decide
  have h1c : ¬ (1 : Fin 2) ∈ (pickRowsDims N C R wf).collapsedSliceDims := by
    show ¬ (1 : Fin 2) ∈ ([0] : List (Fin 2)); decide
  have h1k : (1 : Fin 2) ∈ (pickRowsDims N C R wf).sKept := (GatherDims.mem_sKept _ _).mpr ⟨h1c, List.not_mem_nil⟩
  have key1 : (pickRowsDims N C R wf).start (ix2 p q) idx (1 : Fin 2) + (pickRowsDims N C R wf).batchCoord (ix2 p q) (1 : Fin 2)
      + (pickRowsDims N C R wf).offCoord (ix2 p q) (1 : Fin 2) = q.val := by
    rw [GatherDims.batchCoord_eq_zero _ _ _ List.not_mem_nil]
    unfold GatherDims.start
    rw [dif_neg h1m]
    unfold GatherDims.offCoord
    rw [dif_pos h1k]
    simp only [Nat.add_zero, Nat.zero_add]
    rfl
  unfold Host.gather
  congr 1
  funext a
  refine Fin.ext ?_
  match a with
  | ⟨0, _⟩ => exact key0
  | ⟨1, _⟩ => exact key1

end Cert.Lib.RowGather

end
-- ==== Proof.ScoreSpec.lean ====
/-
  The reconstruction score of a row, at the extended reals.

  For two matrices X and Y of the same shape the score of row r is sqrt(Σ_c (X[r,c] - Y[r,c])²): the Euclidean
  distance between the two rows. It depends on row r of the two matrices and on nothing else. Two consequences are
  proved here, with no finiteness asked of any entry (both sides are the same sums of the same terms):

  * on a block of consecutive rows, the row-sum of the squared differences taken along the columns, reshaped to a
    column and passed through the square root, is the score of the corresponding row of the whole matrices;
  * picking rows of X and of Y by an array of integers and then taking the scores of the picked rows gives the
    entries, picked by the same integers, of the vector of all rows' scores.
-/
import Idealize.ShloMosaic.PureOps.Ideal.Laws
import Idealize.ShloMosaic.Lib.ValueIdx
import Idealize.ShloMosaic.Lib.Pipeline.Value
import proofs.«129387_j386547056923_2_alg».proof.Proof.LibPlainRecord
import proofs.«129387_j386547056923_2_alg».proof.Proof.LibKeepdimsColumn
import proofs.«129387_j386547056923_2_alg».proof.Proof.LibRowGather

noncomputable section

open scoped BigOperators

namespace Cert.Score

open Idealize.ShloMosaic Idealize.ShloMosaic.ValueIdx Cert.Lib.DenseLayer Cert.Lib.RowGather Cert.Lib.KeepdimsColumn

/-- The entrywise squared difference of two arrays. -/
def sqDiff {s : Shape} (X Y : FVec Ideal s .f32) : FVec Ideal s .f32 := mulf (subf X Y) (subf X Y)

/-- The score of row r of a matrix S of squared differences: the square root of the row's sum. -/
def rowScore {M K : Nat} (S : (⟨2, ![M, K]⟩ : Shape).Idx → EReal) (r : Fin M) : EReal :=
  Ideal.sqrt (∑ c : Fin K, S (ix2 r c))

/-- All rows' scores, as a vector. -/
def scoreVec {M K : Nat} (X Y : FVec Ideal ⟨2, ![M, K]⟩ .f32) : (⟨1, ![M]⟩ : Shape).Idx → EReal :=
  fun i => rowScore (sqDiff X Y) (i 0)

/-- All rows' scores, as a column. -/
def scoreCol {M K : Nat} (X Y : FVec Ideal ⟨2, ![M, K]⟩ .f32) : (⟨2, ![M, 1]⟩ : Shape).Idx → EReal :=
  fun i => rowScore (sqDiff X Y) (i 0)

/-- Entrywise differences of blocks of rows. -/
theorem rowBlk_sub {Mb M K : Nat} {off : Nat} {a b : FVec Ideal ⟨2, ![Mb, K]⟩ .f32} {A B : FVec Ideal ⟨2, ![M, K]⟩ .f32}
    (ha : RowBlk off a A) (hb : RowBlk off b B) : RowBlk off (subf a b) (subf A B) := fun r hr k => by
  rw [subf_apply, subf_apply, ha r hr k, hb r hr k]

/-- Squared differences of blocks of rows. -/
theorem rowBlk_sqDiff {Mb M K : Nat} {off : Nat} {a b : FVec Ideal ⟨2, ![Mb, K]⟩ .f32} {A B : FVec Ideal ⟨2, ![M, K]⟩ .f32}
    (ha : RowBlk off a A) (hb : RowBlk off b B) : RowBlk off (sqDiff a b) (sqDiff A B) :=
  (rowBlk_sub ha hb).mul (rowBlk_sub ha hb)

/-- On a block of 2048 rows of 512 columns: the sum along the columns from zero, reshaped to a column, under the
    square root, read at row r, is the score of row off + r of the whole matrix. -/
theorem block_score {M : Nat} {off : Nat} {sb : FVec Ideal ⟨2, ![2048, 512]⟩ .f32} {S : FVec Ideal ⟨2, ![M, 512]⟩ .f32}
    (h : RowBlk off sb S)
    (hred : (⟨2, ![2048, 512]⟩ : Shape).Reduces [1] ⟨1, ![2048]⟩) (hφ : FKind.Formats .f32)
    (hacc : (0x00000000#32 : BitVec 32) = FKind.add.neutral .f32 hφ)
    (hc : (⟨1, ![2048]⟩ : Shape).ShapeCasts ⟨2, ![2048, 1]⟩) (r : Fin 2048) (hr : off + r.val < M) :
    sqrt (shapeCast ⟨2, ![2048, 1]⟩ (multiReduction .add [1] ⟨1, ![2048]⟩ sb 0x00000000#32 hred hφ hacc) hc)
        (ix2 (n0 := 2048) (n1 := 1) r ⟨0, Nat.one_pos⟩)
      = rowScore S ⟨off + r.val, hr⟩ := by
  show Ideal.sqrt (shapeCast ⟨2, ![2048, 1]⟩ (multiReduction .add [1] ⟨1, ![2048]⟩ sb 0x00000000#32 hred hφ hacc) hc
      (ix2 (n0 := 2048) (n1 := 1) r ⟨0, Nat.one_pos⟩)) = _
  unfold rowScore
  refine congrArg Ideal.sqrt ?_
  refine (column_cast_at _ hc r).trans ?_
  refine (Ideal.multiReduction_add_single sb 0x00000000#32 hred hφ hacc (ix1 r)).trans ?_
  refine Finset.sum_congr rfl fun (k : Fin 512) _ => ?_
  have e : hred.lift (ix1 r) k = ix2 r k := funext fun a => Fin.ext (by
    match a with
    | ⟨0, _⟩ => rfl
    | ⟨1, _⟩ => rfl)
  rw [e]
  exact h r hr k

/-- A column of M numbers reshaped to a vector keeps its entries. -/
theorem col_to_vec {α : Type} {M : Nat} (v : (⟨2, ![M, 1]⟩ : Shape).Idx → α)
    (h : (⟨2, ![M, 1]⟩ : Shape).ShapeCasts ⟨1, ![M]⟩) (p : Fin M) :
    shapeCast ⟨1, ![M]⟩ v h (ix1 p) = v (ix2 (n0 := M) (n1 := 1) p ⟨0, Nat.one_pos⟩) :=
  shapeCast_apply v h _ _ (by
    rw [Shape.rowMajor_val_one, Shape.rowMajor_val_two]
    show p.val * 1 + 0 = p.val
    omega)

/-- The column of scores reshaped to a vector is the vector of scores. -/
theorem scoreCol_cast {M K : Nat} (X Y : FVec Ideal ⟨2, ![M, K]⟩ .f32) (h : (⟨2, ![M, 1]⟩ : Shape).ShapeCasts ⟨1, ![M]⟩) :
    shapeCast ⟨1, ![M]⟩ (scoreCol X Y) h = scoreVec X Y := funext fun i => by
  rw [eq_ix1 i]
  exact col_to_vec _ h _

/-- Scores of picked rows are picked scores: rows of X and Y picked by the start indices I, squared differences summed
    along the columns from a zero initial value, square root — against the scores of all rows picked by I. -/
theorem scores_of_picked (X Y : FVec Ideal ⟨2, ![8192, 512]⟩ .f32) (I : IVec ⟨2, ![4096, 1]⟩ 32)
    (wf2 : GatherDims.WF ⟨2, ![8192, 512]⟩ ⟨2, ![4096, 1]⟩ ⟨2, ![4096, 512]⟩ [1] [0] [] [0] [] 1 ![1, 512])
    (wf1 : GatherDims.WF ⟨1, ![8192]⟩ ⟨2, ![4096, 1]⟩ ⟨1, ![4096]⟩ [] [0] [] [0] [] 1 ![1])
    (h' : (⟨2, ![4096, 512]⟩ : Shape).ReducesTo [1] ⟨1, ![4096]⟩) (hS : 0 < (⟨0, ![]⟩ : Shape).numel) :
    Host.sqrt (Host.reduceAdd (F := Ideal) (sqDiff (Host.gather (pickRowsDims 8192 512 4096 wf2) X I)
        (Host.gather (pickRowsDims 8192 512 4096 wf2) Y I)) (constant (F := Ideal) ⟨0, ![]⟩ .f32 0x00000000#32) h' hS)
      = Host.gather (pickDims 8192 4096 wf1) (scoreVec X Y) I := funext fun j => by
  obtain ⟨p, rfl⟩ : ∃ p : Fin 4096, j = ix1 p := ⟨j 0, eq_ix1 j⟩
  rw [pick_apply (by decide : 0 < 8192) wf1]
  show Ideal.sqrt (Host.reduceAdd (F := Ideal) _ _ h' hS (ix1 p)) = rowScore (sqDiff X Y) _
  unfold rowScore
  refine congrArg Ideal.sqrt ?_
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun (k : Fin 512) _ => ?_
  have e : (by decide : (⟨2, ![4096, 512]⟩ : Shape).Reduces [1] ⟨1, ![4096]⟩).lift (ix1 p) k = ix2 p k :=
    funext fun a => Fin.ext (by
      match a with
      | ⟨0, _⟩ => rfl
      | ⟨1, _⟩ => rfl)
  rw [e]
  show (Host.gather _ X I (ix2 p k) - Host.gather _ Y I (ix2 p k)) * (Host.gather _ X I (ix2 p k) - Host.gather _ Y I (ix2 p k)) = _
  rw [pickRows_apply (by decide : 0 < 8192) wf2, pickRows_apply (by decide : 0 < 8192) wf2]
  rfl

end Cert.Score

end
-- ==== Proof.Results.lean ====
/-
  The two results, as functions of the argument arrays.

  From an index vector idx of 4096 signed 32-bit integers, the start indices are idx with 8192 added where idx is
  negative (an index counted from the end), presented as a [4096, 1] array. The picked scores are the entries of the
  vector of all 8192 rows' scores at those start indices (each clamped into the rows). The first result is the mean
  of the scores picked by the training indices — their sum from zero, divided by 4096 — and the second result is the
  scores picked by the test indices.
-/
import proofs.«129387_j386547056923_2_alg».proof.Proof.ScoreSpec

noncomputable section

namespace Cert.Score

open Idealize.ShloMosaic Idealize.ShloMosaic.ValueIdx Cert.Lib.RowGather

/-- The start indices made from an index vector: a negative index is counted from the end. -/
def startIdx (x : IVec ⟨1, ![4096]⟩ 32)
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) : IVec ⟨2, ![4096, 1]⟩ 32 :=
  broadcastInDim ⟨2, ![4096, 1]⟩ ![0] hb1
    (select (cmpi .slt x (broadcastInDim ⟨1, ![4096]⟩ ![] hb0 (constantI ⟨0, ![]⟩ 32 0#32)))
      (addi x (broadcastInDim ⟨1, ![4096]⟩ ![] hb0 (constantI ⟨0, ![]⟩ 32 8192#32))) x)

/-- The scores of the rows an index vector names. -/
def pickedScores (X Y : FVec Ideal ⟨2, ![8192, 512]⟩ .f32) (x : IVec ⟨1, ![4096]⟩ 32)
    (wf1 : GatherDims.WF ⟨1, ![8192]⟩ ⟨2, ![4096, 1]⟩ ⟨1, ![4096]⟩ [] [0] [] [0] [] 1 ![1])
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) : FVec Ideal ⟨1, ![4096]⟩ .f32 :=
  Host.gather (pickDims 8192 4096 wf1) (scoreVec X Y) (startIdx x hb0 hb1)

/-- The mean of 4096 numbers as the programs take it: their sum from zero, divided by the float 4096. -/
def meanOf (v : FVec Ideal ⟨1, ![4096]⟩ .f32) (h' : (⟨1, ![4096]⟩ : Shape).ReducesTo [0] ⟨0, ![]⟩)
    (hS : 0 < (⟨0, ![]⟩ : Shape).numel) : FVec Ideal ⟨0, ![]⟩ .f32 :=
  Host.divf (F := Ideal) (Host.reduceAdd (F := Ideal) v (constant (F := Ideal) ⟨0, ![]⟩ .f32 0x00000000#32) h' hS)
    (constant (F := Ideal) ⟨0, ![]⟩ .f32 0x45800000#32)

end Cert.Score

end
-- ==== Proof.KernelValue.lean ====
/-
  What the kernel's program leaves in its two results.

  The kernel walks the 8192 rows of the input matrix in four blocks of 2048 rows. On a block it forms the hidden
  layer (block times the first transposed weight matrix, plus the first bias row, maximum with 0), the
  reconstruction (hidden layer times the second transposed weight matrix, plus the second bias row), the squared
  differences to the block itself, their sums along the columns and the square roots: one score per row, stored as a
  block of a column of 8192 scores. Every one of these operations acts on each row by itself, so a block of the
  result is the corresponding block of the same operations applied to the whole matrix: the column ends holding the
  score of every row of the input against the whole-matrix reconstruction (written with the reference's own
  whole-matrix operations). After the blocks, the column is reshaped to a vector, and the two results are the mean of
  the scores picked by the training indices and the scores picked by the test indices.
-/
import proofs.«129387_j386547056923_2_alg».proof.Proof.Gen.KernelIdeal.Frame
import proofs.«129387_j386547056923_2_alg».proof.Proof.Gen.ReferenceIdeal.Read
import proofs.«129387_j386547056923_2_alg».proof.Proof.Results
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Score

open Cert.KernelIdeal Cert.KernelIdeal.Gen Idealize.ShloMosaic.ValueIdx Cert.Lib.DenseLayer Cert.Lib.RowGather Cert.Score

variable (m : (ℓ : Loc nD τ sig) → Buf (Elt Ideal) ℓ) (ρ : Dev nD → PrngReg)

/-! ## The arrays the region finds -/

/-- The first weight matrix as the region finds it: transposed (the narrowing of its format changes nothing). -/
theorem eV1 (c : Dev nD) : (V m c main_v1 : FVec Ideal S512x256 .bf16)
    = truncf (F := Ideal) .bf16 (transpose S512x256 [1, 0] (m ((c.tc : Thread nD τ).loc main_arg6)) transposes_S256x512_S512x256_1_0) bitsLt_bf16_f32 := by
  show StableHlo.after hostOps0 (fun b => m (c, b)) (Proc.devRef .tc main_v1) = _
  after_results

/-- The second weight matrix as the region finds it: transposed. -/
theorem eV3 (c : Dev nD) : (V m c main_v3 : FVec Ideal S256x512 .bf16)
    = truncf (F := Ideal) .bf16 (transpose S256x512 [1, 0] (m ((c.tc : Thread nD τ).loc main_arg8)) transposes_S512x256_S256x512_1_0) bitsLt_bf16_f32 := by
  show StableHlo.after hostOps0 (fun b => m (c, b)) (Proc.devRef .tc main_v3) = _
  after_results

/-- The first bias as the region finds it: a row. -/
theorem eV4 (c : Dev nD) : (V m c main_v4 : S1x256.Idx → EReal)
    = shapeCast S1x256 (m ((c.tc : Thread nD τ).loc main_arg7)) shapeCasts_S256_S1x256 := by
  show StableHlo.after hostOps0 (fun b => m (c, b)) (Proc.devRef .tc main_v4) = _
  after_results
  rfl

/-- The second bias as the region finds it: a row. -/
theorem eV5 (c : Dev nD) : (V m c main_v5 : S1x512.Idx → EReal)
    = shapeCast S1x512 (m ((c.tc : Thread nD τ).loc main_arg9)) shapeCasts_S512_S1x512 := by
  show StableHlo.after hostOps0 (fun b => m (c, b)) (Proc.devRef .tc main_v5) = _
  after_results
  rfl

/-! ## The blocks -/

theorem hz : (![0, 0] : Fin 2 → Nat) = fun _ => 0 := funext fun a => by fin_cases a <;> rfl

/-- The index maps over the grid: the input matrix and the score column move one block of rows per point; the
    weights and biases stay at their one block. -/
theorem idx_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input's block at point t is rows 2048 t … 2048 t + 2047 of the input matrix. -/
theorem iblk0_apply (c : Dev nD) (t : Fin cfg0.N) (r : Fin 2048) (k : Fin 512) (h : 2048 * t.val + r.val < 8192) :
    (iblk m c 0 t : Vec Ideal S2048x512 .f32) (ix2 r k)
      = (m ((c.tc : Thread nD τ).loc main_arg0) : S8192x512.Idx → EReal) (ix2 ⟨2048 * t.val + r.val, h⟩ k) := by
  obtain ⟨e0, e1, -⟩ := idx_maps t
  unfold iblk
  rw [View.read_apply]
  show V m c main_arg0 _ = _
  rw [V_main_arg0]
  refine congrArg _ (funext fun a => Fin.ext ?_)
  match a with
  | ⟨0, _⟩ => show win0_0.index t 0 * 2048 + 1 * r.val = 2048 * t.val + r.val; rw [e0]; omega
  | ⟨1, _⟩ => show win0_0.index t 1 * 512 + 1 * k.val = k.val; rw [e1]; omega

theorem iblk1_eq (c : Dev nD) (t : Fin cfg0.N) : (iblk m c 1 t : Vec Ideal S512x256 .bf16) = V m c main_v1 := by
  obtain ⟨-, -, e0, e1, -⟩ := idx_maps t
  funext y
  unfold iblk
  rw [View.read_apply]
  show V m c main_v1 _ = _
  refine congrArg _ (funext fun a => Fin.ext ?_)
  match a with
  | ⟨0, _⟩ => show win0_1.index t 0 * 512 + 1 * (y 0).val = (y 0).val; rw [e0]; omega
  | ⟨1, _⟩ => show win0_1.index t 1 * 256 + 1 * (y 1).val = (y 1).val; rw [e1]; omega

theorem iblk2_eq (c : Dev nD) (t : Fin cfg0.N) : (iblk m c 2 t : Vec Ideal S1x256 .f32) = V m c main_v4 := by
  obtain ⟨-, -, -, -, e0, e1, -⟩ := idx_maps t
  funext y
  unfold iblk
  rw [View.read_apply]
  show V m c main_v4 _ = _
  refine congrArg _ (funext fun a => Fin.ext ?_)
  match a with
  | ⟨0, _⟩ => show win0_2.index t 0 * 1 + 1 * (y 0).val = (y 0).val; rw [e0]; omega
  | ⟨1, _⟩ => show win0_2.index t 1 * 256 + 1 * (y 1).val = (y 1).val; rw [e1]; omega

theorem iblk3_eq (c : Dev nD) (t : Fin cfg0.N) : (iblk m c 3 t : Vec Ideal S256x512 .bf16) = V m c main_v3 := by
  obtain ⟨-, -, -, -, -, -, e0, e1, -⟩ := idx_maps t
  funext y
  unfold iblk
  rw [View.read_apply]
  show V m c main_v3 _ = _
  refine congrArg _ (funext fun a => Fin.ext ?_)
  match a with
  | ⟨0, _⟩ => show win0_3.index t 0 * 256 + 1 * (y 0).val = (y 0).val; rw [e0]; omega
  | ⟨1, _⟩ => show win0_3.index t 1 * 512 + 1 * (y 1).val = (y 1).val; rw [e1]; omega

theorem iblk4_eq (c : Dev nD) (t : Fin cfg0.N) : (iblk m c 4 t : Vec Ideal S1x512 .f32) = V m c main_v5 := by
  obtain ⟨-, -, -, -, -, -, -, -, e0, e1, -⟩ := idx_maps t
  funext y
  unfold iblk
  rw [View.read_apply]
  show V m c main_v5 _ = _
  refine congrArg _ (funext fun a => Fin.ext ?_)
  match a with
  | ⟨0, _⟩ => show win0_4.index t 0 * 1 + 1 * (y 0).val = (y 0).val; rw [e0]; omega
  | ⟨1, _⟩ => show win0_4.index t 1 * 512 + 1 * (y 1).val = (y 1).val; rw [e1]; omega

/-! ## The body's arithmetic on a block of rows -/

theorem plain_b1 : Plain dot_S2048x512_S512x256_S2048x256_1_0_0_1_n_n := Plain.of_fields _ rfl rfl rfl rfl rfl rfl
theorem plain_b2 : Plain dot_S2048x256_S256x512_S2048x512_1_0_0_1_n_n := Plain.of_fields _ rfl rfl rfl rfl rfl rfl
theorem plain_h1 : Plain Cert.ReferenceIdeal.dot_S8192x512_S512x256_S8192x256_1_0_0_1_n_n := Plain.of_fields _ rfl rfl rfl rfl rfl rfl
theorem plain_h2 : Plain Cert.ReferenceIdeal.dot_S8192x256_S256x512_S8192x512_1_0_0_1_n_n := Plain.of_fields _ rfl rfl rfl rfl rfl rfl

/-- On a block of rows of the input, against the transposed weights and the bias rows, the body's stored value at
    row r is the score of row off + r of the input against the whole-matrix reconstruction. -/
theorem pay_rows {off : Nat} (x0 : FVec Ideal S2048x512 .f32) (X : FVec Ideal S8192x512 .f32) (h0 : RowBlk off x0 X)
    (x6 : FVec Ideal S256x512 .f32) (x7 : FVec Ideal S256 .f32) (x8 : FVec Ideal S512x256 .f32) (x9 : FVec Ideal S512 .f32)
    (r : Fin 2048) (hr : off + r.val < 8192) :
    k0_pay1 (F := Ideal) x0 (truncf .bf16 (transpose S512x256 [1, 0] x6 transposes_S256x512_S512x256_1_0) bitsLt_bf16_f32)
        (shapeCast S1x256 x7 shapeCasts_S256_S1x256)
        (truncf .bf16 (transpose S256x512 [1, 0] x8 transposes_S512x256_S256x512_1_0) bitsLt_bf16_f32)
        (shapeCast S1x512 x9 shapeCasts_S512_S1x512) (ix2 (n0 := 2048) (n1 := 1) r ⟨0, Nat.one_pos⟩)
      = rowScore (sqDiff X (Cert.ReferenceIdeal.Read.val_main_v16 (F := Ideal) X x6 x7 x8 x9)) ⟨off + r.val, hr⟩ := by
  have eb1 : shapeCast S1x256 x7 shapeCasts_S256_S1x256 = Cert.ReferenceIdeal.Read.val_main_v8 (F := Ideal) x7 :=
    addUnit_eq_bcast (by decide) x7 _ _
  have eb2 : shapeCast S1x512 x9 shapeCasts_S512_S1x512 = Cert.ReferenceIdeal.Read.val_main_v14 (F := Ideal) x9 :=
    addUnit_eq_bcast (by decide) x9 _ _
  unfold k0_pay1
  simp only [shapeCast_self]
  rw [eb1, eb2]
  refine block_score (rowBlk_sqDiff h0 ?_) _ _ _ _ r hr
  refine RowBlk.add (RowBlk.matmul plain_b2 plain_h2 ?_ _ _ _) (RowBlk.bias _ _ _)
  exact RowBlk.max (RowBlk.add (RowBlk.matmul plain_b1 plain_h1 h0 _ _ _) (RowBlk.bias _ _ _))
    (RowBlk.const (Ideal.ofBits .f32 0x00000000#32) (fun _ => rfl) (fun _ => rfl))

/-- The same at any index of the block's column. -/
theorem pay_col {off : Nat} (hoff : off + 2048 ≤ 8192) (x0 : FVec Ideal S2048x512 .f32) (X : FVec Ideal S8192x512 .f32)
    (h0 : RowBlk off x0 X) (x6 : FVec Ideal S256x512 .f32) (x7 : FVec Ideal S256 .f32) (x8 : FVec Ideal S512x256 .f32)
    (x9 : FVec Ideal S512 .f32) (j : S2048x1.Idx) :
    k0_pay1 (F := Ideal) x0 (truncf .bf16 (transpose S512x256 [1, 0] x6 transposes_S256x512_S512x256_1_0) bitsLt_bf16_f32)
        (shapeCast S1x256 x7 shapeCasts_S256_S1x256)
        (truncf .bf16 (transpose S256x512 [1, 0] x8 transposes_S512x256_S256x512_1_0) bitsLt_bf16_f32)
        (shapeCast S1x512 x9 shapeCasts_S512_S1x512) j
      = rowScore (sqDiff X (Cert.ReferenceIdeal.Read.val_main_v16 (F := Ideal) X x6 x7 x8 x9))
          ⟨off + (j 0).val, by have := idx2_lt0 j; omega⟩ := by
  have e : j = ix2 (n0 := 2048) (n1 := 1) ⟨(j 0).val, idx2_lt0 j⟩ ⟨0, Nat.one_pos⟩ := by
    funext a; refine Fin.ext ?_
    match a with
    | ⟨0, _⟩ => rfl
    | ⟨1, _⟩ => show (j 1).val = 0; have := idx2_lt1 j; omega
  exact (congrArg _ e).trans (pay_rows x0 X h0 x6 x7 x8 x9 ⟨(j 0).val, idx2_lt0 j⟩ (by have := idx2_lt0 j; omega))

/-! ## The score column after the blocks -/

/-- The whole-matrix reconstruction, in the reference's operations, of the kernel's arguments. -/
abbrev recon (c : Dev nD) : FVec Ideal S8192x512 .f32 :=
  Cert.ReferenceIdeal.Read.val_main_v16 (F := Ideal) (m ((c.tc : Thread nD τ).loc main_arg0)) (m ((c.tc : Thread nD τ).loc main_arg6))
    (m ((c.tc : Thread nD τ).loc main_arg7)) (m ((c.tc : Thread nD τ).loc main_arg8)) (m ((c.tc : Thread nD τ).loc main_arg9))

/-- What point t writes back is block t of the column of all rows' scores. -/
theorem flushed5_eq (c : Dev nD) (t : Fin cfg0.N) :
    (dats m 0 c).flushed 5 t
      = ((cfg0.win 5).blk t).view.read (Elt Ideal) (scoreCol (m ((c.tc : Thread nD τ).loc main_arg0)) (recon m c)) := by
  obtain ⟨-, -, -, -, -, -, -, -, -, -, e50, e51⟩ := idx_maps t
  have ht : t.val < 4 := lt_of_lt_of_eq t.isLt N_0
  show (cfg0.win 5).cut (grid0.coords t) ((dats m 0 c).after 5 t) = _
  rw [after0_5]
  unfold out0_5
  rw [View.canon_unit_zero hz]
  simp only [View.ld_unit_zero (S := S2048x512) hz, View.ld_unit_zero (S := S512x256) hz, View.ld_unit_zero (S := S1x256) hz,
    View.ld_unit_zero (S := S256x512) hz, View.ld_unit_zero (S := S1x512) hz]
  rw [iblk1_eq, iblk2_eq, iblk3_eq, iblk4_eq, eV1, eV4, eV3, eV5]
  funext j
  refine (pay_col (off := 2048 * t.val) (by omega) (iblk m c 0 t) (m ((c.tc : Thread nD τ).loc main_arg0))
    (fun r hr k => iblk0_apply m c t r k hr) _ _ _ _ j).trans ?_
  show rowScore _ _ = rowScore _ ((((cfg0.win 5).blk t).view.emb j) 0)
  refine congrArg (rowScore _) (Fin.ext ?_)
  show 2048 * t.val + (j 0).val = win0_5.index t 0 * 2048 + 1 * (j 0).val
  rw [e50]; omega

/-- An index of the column is in point t's block iff each coordinate is in the block's range. -/
theorem mem_blk5 (t : Fin cfg0.N) (i : S8192x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v6).slice (win0_5.rect t)).set ↔ _
  rw [View.set_slice_whole, Rect.mem_set_unit]
  exact Iff.rfl

/-- The column after the run: the score of every row (row r is written by the point r / 2048). -/
theorem final5 (c : Dev nD) :
    (dats m 0 c).arrAt 5 cfg0.N = scoreCol (m ((c.tc : Thread nD τ).loc main_arg0)) (recon m c) :=
  (dats m 0 c).arrAt_eq_of_cover 5 _ (fun t _ => flushed5_eq m c t) fun i => by
    have hi0 : (i 0).val < 8192 := idx2_lt0 (n0 := 8192) (n1 := 1) i
    have hi1 : (i 1).val < 1 := idx2_lt1 (n0 := 8192) (n1 := 1) i
    have ht : (i 0).val / 2048 < cfg0.N := by rw [show cfg0.N = 4 from N_0]; omega
    obtain ⟨-, -, -, -, -, -, -, -, -, -, e50, e51⟩ := idx_maps ⟨(i 0).val / 2048, ht⟩
    have e50' : win0_5.index ⟨(i 0).val / 2048, ht⟩ 0 = (i 0).val / 2048 := e50
    refine ⟨⟨(i 0).val / 2048, ht⟩, flush0_5 _, ?_⟩
    rw [mem_blk5]
    intro a
    match a with
    | ⟨0, _⟩ =>
      show win0_5.index ⟨(i 0).val / 2048, ht⟩ 0 * 2048 ≤ (i 0).val
        ∧ (i 0).val < win0_5.index ⟨(i 0).val / 2048, ht⟩ 0 * 2048 + 2048
      rw [e50']; omega
    | ⟨1, _⟩ =>
      show win0_5.index ⟨(i 0).val / 2048, ht⟩ 1 * 1 ≤ (i 1).val
        ∧ (i 1).val < win0_5.index ⟨(i 0).val / 2048, ht⟩ 1 * 1 + 1
      rw [e51]; omega

/-! ## The two results -/

/-- The second result: the scores of the rows the test indices name. -/
abbrev res1 (c : Dev nD) : FVec Ideal S4096 .f32 :=
  pickedScores (m ((c.tc : Thread nD τ).loc main_arg0)) (recon m c) (m ((c.tc : Thread nD τ).loc main_arg3))
    gather_S8192_S4096x1_S4096_n_0_n_n_0_1_1_wf bcast_S_S4096 bcast_S4096_S4096x1_0

/-- The first result: the mean of the scores of the rows the training indices name. -/
abbrev res0 (c : Dev nD) : FVec Ideal S_ .f32 :=
  meanOf (pickedScores (m ((c.tc : Thread nD τ).loc main_arg0)) (recon m c) (m ((c.tc : Thread nD τ).loc main_arg2))
    gather_S8192_S4096x1_S4096_n_0_n_n_0_1_1_wf bcast_S_S4096 bcast_S4096_S4096x1_0) reducesTo_S4096_S_d0 h_S_

/-- The score column among the buffers the lines after the region start from. -/
theorem tail_col (c : Dev nD) :
    (Pipeline.withArrays (cfgs 0).spec c (V0 m c) (fun w => (dats m 0 c).arrAt w (cfgs 0).N) (Proc.devRef .tc main_v6)
        : S8192x1.Idx → EReal)
      = scoreCol (m ((c.tc : Thread nD τ).loc main_arg0)) (recon m c) :=
  (Pipeline.withArrays_arr spec0 launch0.win.arr_inj c _ _ 5).trans (final5 m c)

theorem tail_arg2 (c : Dev nD) :
    (Pipeline.withArrays (cfgs 0).spec c (V0 m c) (fun w => (dats m 0 c).arrAt w (cfgs 0).N) (Proc.devRef .tc main_arg2)
        : S4096.Idx → BitVec 32)
      = m ((c.tc : Thread nD τ).loc main_arg2) :=
  (Pipeline.withArrays_of_ne spec0 c _ _ main_arg2 (by exact (by decide : ∀ w, Pipeline.arrRef spec0 w ≠ main_arg2))).trans (V_main_arg2 m c)

theorem tail_arg3 (c : Dev nD) :
    (Pipeline.withArrays (cfgs 0).spec c (V0 m c) (fun w => (dats m 0 c).arrAt w (cfgs 0).N) (Proc.devRef .tc main_arg3)
        : S4096.Idx → BitVec 32)
      = m ((c.tc : Thread nD τ).loc main_arg3) :=
  (Pipeline.withArrays_of_ne spec0 c _ _ main_arg3 (by exact (by decide : ∀ w, Pipeline.arrRef spec0 w ≠ main_arg3))).trans (V_main_arg3 m c)

set_option maxHeartbeats 2000000 in
/-- The lines after the region leave the second result at the picked scores. -/
theorem tail_v23 (c : Dev nD) : Pipeline.afterTail₀ cfgs (dats m) 0 (V0 m) [hostOps1] c main_v23 = res1 m c := by
  unfold Pipeline.afterTail₀
  show StableHlo.after hostOps1 _ (Proc.devRef .tc main_v23) = _
  after_results_simp
  rw [tail_col, tail_arg3]
  unfold res1 pickedScores
  rw [← scoreCol_cast _ _ shapeCasts_S8192x1_S8192]
  rfl

set_option maxHeartbeats 2000000 in
/-- The lines after the region leave the first result at the mean of the picked scores. -/
theorem tail_v16 (c : Dev nD) : Pipeline.afterTail₀ cfgs (dats m) 0 (V0 m) [hostOps1] c main_v16 = res0 m c := by
  unfold Pipeline.afterTail₀
  show StableHlo.after hostOps1 _ (Proc.devRef .tc main_v16) = _
  after_results_simp
  rw [tail_col, tail_arg2]
  unfold res0 pickedScores
  rw [← scoreCol_cast _ _ shapeCasts_S8192x1_S8192]
  rfl

/-- The run, read: the two results at their functions of the arguments, the arguments unchanged. -/
theorem run : θ_run defs (onTc (τ := τ) (main (F := Ideal))) ⟨m, fun _ => 0, ρ⟩ fun r => ∀ c : Dev nD,
      r.2.mem ((c.tc : Thread nD τ).loc main_v16) = res0 m c
      ∧ r.2.mem ((c.tc : Thread nD τ).loc main_v23) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v16 (Pipeline.mem_restRefs_of main_v16 (by decide) (by decide))).trans (tail_v16 m c),
      ((h c).2 main_v23 (Pipeline.mem_restRefs_of main_v23 (by decide) (by decide))).trans (tail_v23 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Score

end
-- ==== Proof.RefValue.lean ====
/-
  The reference's two results are the mean of the picked scores and the picked scores.

  The reference picks rows of the input matrix and of its reconstruction by the start indices, and takes the scores
  of the picked rows; the score of a row depends on that row only, so these are the picked entries of the vector of
  all rows' scores (the reconstruction being the reference's own whole-matrix term).
-/
import proofs.«129387_j386547056923_2_alg».proof.Proof.Gen.ReferenceIdeal.Read
import proofs.«129387_j386547056923_2_alg».proof.Proof.Results

noncomputable section

namespace Cert.ReferenceIdeal.Score

open Cert.ReferenceIdeal Cert.ReferenceIdeal.Gen Cert.ReferenceIdeal.Read Idealize.ShloMosaic Idealize.ShloMosaic.ValueIdx
open Cert.Score Cert.Lib.RowGather

/-- The scores of the rows the test indices name. -/
theorem test_scores (x0 : FVec Ideal S8192x512 .f32) (x3 : IVec S4096 32) (x6 : FVec Ideal S256x512 .f32)
    (x7 : FVec Ideal S256 .f32) (x8 : FVec Ideal S512x256 .f32) (x9 : FVec Ideal S512 .f32)
    (wf1 : GatherDims.WF ⟨1, ![8192]⟩ ⟨2, ![4096, 1]⟩ ⟨1, ![4096]⟩ [] [0] [] [0] [] 1 ![1])
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) :
    val_main_v54 (F := Ideal) x0 x3 x6 x7 x8 x9
      = pickedScores x0 (val_main_v16 (F := Ideal) x0 x6 x7 x8 x9) x3 wf1 hb0 hb1 :=
  scores_of_picked x0 (val_main_v16 (F := Ideal) x0 x6 x7 x8 x9) (startIdx x3 hb0 hb1)
    gather_S8192x512_S4096x1_S4096x512_1_0_n_n_0_1_1512_wf wf1 reducesTo_S4096x512_S4096_d1 h_S_

/-- The scores of the rows the training indices name. -/
theorem train_scores (x0 : FVec Ideal S8192x512 .f32) (x2 : IVec S4096 32) (x6 : FVec Ideal S256x512 .f32)
    (x7 : FVec Ideal S256 .f32) (x8 : FVec Ideal S512x256 .f32) (x9 : FVec Ideal S512 .f32)
    (wf1 : GatherDims.WF ⟨1, ![8192]⟩ ⟨2, ![4096, 1]⟩ ⟨1, ![4096]⟩ [] [0] [] [0] [] 1 ![1])
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2)) :
    val_main_v34 (F := Ideal) x0 x2 x6 x7 x8 x9
      = pickedScores x0 (val_main_v16 (F := Ideal) x0 x6 x7 x8 x9) x2 wf1 hb0 hb1 :=
  scores_of_picked x0 (val_main_v16 (F := Ideal) x0 x6 x7 x8 x9) (startIdx x2 hb0 hb1)
    gather_S8192x512_S4096x1_S4096x512_1_0_n_n_0_1_1512_wf wf1 reducesTo_S4096x512_S4096_d1 h_S_

/-- The first result: the mean of the scores the training indices name. -/
theorem mean_train (x0 : FVec Ideal S8192x512 .f32) (x2 : IVec S4096 32) (x6 : FVec Ideal S256x512 .f32)
    (x7 : FVec Ideal S256 .f32) (x8 : FVec Ideal S512x256 .f32) (x9 : FVec Ideal S512 .f32)
    (wf1 : GatherDims.WF ⟨1, ![8192]⟩ ⟨2, ![4096, 1]⟩ ⟨1, ![4096]⟩ [] [0] [] [0] [] 1 ![1])
    (hb0 : (⟨0, ![]⟩ : Shape).BroadcastsInDim ⟨1, ![4096]⟩ (![] : Fin 0 → Fin 1))
    (hb1 : (⟨1, ![4096]⟩ : Shape).BroadcastsInDim ⟨2, ![4096, 1]⟩ (![0] : Fin 1 → Fin 2))
    (h' : (⟨1, ![4096]⟩ : Shape).ReducesTo [0] ⟨0, ![]⟩) (hS : 0 < (⟨0, ![]⟩ : Shape).numel) :
    val_main_v36 (F := Ideal) x0 x2 x6 x7 x8 x9
      = meanOf (pickedScores x0 (val_main_v16 (F := Ideal) x0 x6 x7 x8 x9) x2 wf1 hb0 hb1) h' hS := by
  unfold val_main_v36 val_main_v35
  rw [train_scores x0 x2 x6 x7 x8 x9 wf1 hb0 hb1]
  rfl

end Cert.ReferenceIdeal.Score

end
-- ==== Proof.lean ====
/- The kernel computes, block of rows by block of rows, the score sqrt(Σ_c (x[r,c] - x_[r,c])²) of every row r of the
   input matrix x against its reconstruction x_ = relu(x·W1ᵀ + b1)·W2ᵀ + b2, and afterwards picks the scores of the
   rows named by two index vectors; the reference first picks those rows of x and of x_ and then takes their scores.
   A row's score depends on that row alone, and both programs read a start index the same way (8192 added to a
   negative one, then clamped into the rows), so the picked scores agree entry by entry, and with them their mean.
   No entry needs to be finite: on both sides every number is the same sum of the same products.
   The three frames are the generated runs; the idealization rewrote nothing, so `preserves` holds trivially. -/
import proofs.«129387_j386547056923_2_alg».proof.Defs
import proofs.«129387_j386547056923_2_alg».proof.Proof.Gen.Kernel
import proofs.«129387_j386547056923_2_alg».proof.Proof.Gen.Kernel.Skeleton
import proofs.«129387_j386547056923_2_alg».proof.Proof.Gen.Kernel.Launch
import proofs.«129387_j386547056923_2_alg».proof.Proof.Gen.Kernel.Points
import proofs.«129387_j386547056923_2_alg».proof.Proof.Gen.Kernel.Frame
import proofs.«129387_j386547056923_2_alg».proof.Proof.Gen.KernelIdeal
import proofs.«129387_j386547056923_2_alg».proof.Proof.Gen.KernelIdeal.Skeleton
import proofs.«129387_j386547056923_2_alg».proof.Proof.Gen.KernelIdeal.Launch
import proofs.«129387_j386547056923_2_alg».proof.Proof.Gen.KernelIdeal.Points
import proofs.«129387_j386547056923_2_alg».proof.Proof.Gen.KernelIdeal.Frame
import proofs.«129387_j386547056923_2_alg».proof.Proof.Gen.ReferenceIdeal
import proofs.«129387_j386547056923_2_alg».proof.Proof.Gen.Pre_finite_inputs
import proofs.«129387_j386547056923_2_alg».proof.Proof.Gen.ReferenceIdeal.Run
import proofs.«129387_j386547056923_2_alg».proof.Proof.Gen.ReferenceIdeal.Read
import proofs.«129387_j386547056923_2_alg».proof.Proof.KernelValue
import proofs.«129387_j386547056923_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the mean of the scores the training indices name and the scores the test indices name. -/
theorem algebraic : Cert.algebraic_KernelIdeal_ReferenceIdeal := by
  intro m ρ m' ρ' _ hagree
  refine ⟨fun c => Cert.KernelIdeal.Score.res0 m c, fun c => Cert.KernelIdeal.Score.res1 m c,
    Cert.KernelIdeal.Score.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v36_eq, a0, a2, a6, a7, a8, a9]
    exact Cert.ReferenceIdeal.Score.mean_train _ _ _ _ _ _ _ _ _ _ _
  · rw [Cert.ReferenceIdeal.Read.val_main_v54_eq, a0, a3, a6, a7, a8, a9]
    exact Cert.ReferenceIdeal.Score.test_scores _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
